-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S10000x64 : Shape := ⟨2, ![10000, 64]⟩
abbrev S10000x1 : Shape := ⟨2, ![10000, 1]⟩
abbrev S1000000x64 : Shape := ⟨2, ![1000000, 64]⟩
abbrev S1x64 : Shape := ⟨2, ![1, 64]⟩

abbrev nBuf : Space → Nat
  | .hbm => 31
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S100000x1, .f32⟩
  | .hbm, ⟨15, _⟩ => ⟨S100000x64, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S1x64, .f32⟩
  | .hbm, ⟨30, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_1_0_0_n_n_wf : DotDims.WF S10000x64 S64x64 S10000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S_, .f32⟩
  | .hbm, ⟨31, _⟩ => ⟨S100000x64, .f32⟩
  | .hbm, ⟨32, _⟩ => ⟨S1000000x1, .i32⟩
  | .hbm, ⟨33, _⟩ => ⟨S100000x64, .f32⟩
  | .hbm, ⟨34, _⟩ => ⟨S100000x64, .f32⟩
  | .hbm, ⟨35, _⟩ => ⟨S64x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result buffer NAMED.

  @main is four segments: the host operations that build the degree column, the normalising region, the host
  operations that gather and scatter-add the messages, and the linear region.  The buffer contents at the four
  boundaries are the fold `W0 … W4` of the frame module; the run below ends with every unscoped buffer at `W4`,
  and reads off, besides the four argument arrays, the result array `main_v21`: it is `W4` there, which is
  what the last region's write-backs leave (`W4_out`).
-/
import proofs.«169893_j90615220011124_2_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last boundary the result array holds what the linear region's write-backs leave. -/
theorem W4_out (c : Dev nD) :
    W4 m ρ c (Proc.devRef .tc main_v21) = (dat1 (V3 m ρ) c).arrAt 4 cfg1.N :=
  W4_arr m ρ c 4

set_option backward.isDefEq.respectTransparency.types false in
/-- Every weakly fair execution of @main terminates, nothing faulting; the result array ends at the last
    boundary's contents and the four argument arrays as launched. -/
theorem run : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Out

end
-- ==== Proof.HostReads.lean ====
/-
  What the host operations around the two regions compute, read in the vocabulary of the reference's stages.

  Both programs begin with the same host operations on the edge list `E` (argument 1): row 0 is the source
  column, row 1 the destination column, the degree `deg` is the scatter-add of ones at the sources.  The kernel
  hands `deg`, reshaped to a column, to its normalising region; afterwards it gathers the normalised rows at
  the (wrapped) sources and scatter-adds them at the destinations, exactly as the reference does with its own
  normalised array.  So each array a region finds at its entry is a stage of the reference (or such a stage
  applied to the first region's output), and every equation here is the two programs' texts being the same.
-/
import proofs.«169893_j90615220011124_2_alg».proof.Proof.Gen.KernelIdeal.Frame
import proofs.«169893_j90615220011124_2_alg».proof.Proof.Gen.ReferenceIdeal.Read

set_option maxRecDepth 16384

noncomputable section

namespace Cert.KernelIdeal.Out

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Entry of the normalising region -/

/-- The features `x` reach the first region as launched. -/
theorem V1_arg0 (c : Dev nD) : V1 m ρ c main_arg0 = m ((c.tc : Thread nD τ).loc main_arg0) := by
  show StableHlo.after hostOps0 (W0 m ρ c) (Proc.devRef .tc main_arg0) = _
  after_results

/-- The degree column the first region reads is the reference's degree, reshaped `[n] → [n, 1]`. -/
theorem V1_v8 (c : Dev nD) :
    V1 m ρ c main_v8 = shapeCast S100000x1
      (Cert.ReferenceIdeal.Read.val_main_v7 (F := F) (m ((c.tc : Thread nD τ).loc main_arg1))) Facts₀.shapeCasts_S100000_S100000x1 := by
  show StableHlo.after hostOps0 (W0 m ρ c) (Proc.devRef .tc main_v8) = _
  after_results; rfl

/-! ## Between the regions: buffers the first region does not own keep what the first stretch left -/

/-- The source column. -/
theorem W2_v1 (c : Dev nD) :
    W2 m ρ c (Proc.devRef .tc main_v1) = Cert.ReferenceIdeal.Read.val_main_v1 (F := F) (m ((c.tc : Thread nD τ).loc main_arg1)) :=
  (W2_of_ne m ρ c main_v1 (by decide)).trans (by
    show StableHlo.after hostOps0 (W0 m ρ c) (Proc.devRef .tc main_v1) = _
    after_results; rfl)

/-- The destination column. -/
theorem W2_v3 (c : Dev nD) :
    W2 m ρ c (Proc.devRef .tc main_v3) = Cert.ReferenceIdeal.Read.val_main_v3 (F := F) (m ((c.tc : Thread nD τ).loc main_arg1)) :=
  (W2_of_ne m ρ c main_v3 (by decide)).trans (by
    show StableHlo.after hostOps0 (W0 m ρ c) (Proc.devRef .tc main_v3) = _
    after_results; rfl)

/-- The weight matrix. -/
theorem W2_arg2 (c : Dev nD) : W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)

/-- The bias. -/
theorem W2_arg3 (c : Dev nD) : W2 m ρ c (Proc.devRef .tc main_arg3) = m ((c.tc : Thread nD τ).loc main_arg3) :=
  (W2_of_ne m ρ c main_arg3 (by decide)).trans (by
    show StableHlo.after hostOps0 (W0 m ρ c) (Proc.devRef .tc main_arg3) = _
    after_results)

/-! ## Entry of the linear region -/

/-- The normalised features reach the second region as the first region left them. -/
theorem V3_v9 (c : Dev nD) : V3 m ρ c main_v9 = (dat0 (V1 m ρ) c).arrAt 2 cfg0.N := by
  show StableHlo.after hostOps1 (W2 m ρ c) (Proc.devRef .tc main_v9) = _
  after_results
  exact W2_arr m ρ c 2

/-- The weight matrix reaches the second region as launched. -/
theorem V3_arg2 (c : Dev nD) : V3 m ρ c main_arg2 = m ((c.tc : Thread nD τ).loc main_arg2) := by
  show StableHlo.after hostOps1 (W2 m ρ c) (Proc.devRef .tc main_arg2) = _
  after_results
  exact W2_arg2 m ρ c

/-- The bias reaches the second region reshaped `[d] → [1, d]`. -/
theorem V3_v20 (c : Dev nD) :
    V3 m ρ c main_v20 = shapeCast S1x64 (m ((c.tc : Thread nD τ).loc main_arg3)) Facts₀.shapeCasts_S64_S1x64 := by
  show StableHlo.after hostOps1 (W2 m ρ c) (Proc.devRef .tc main_v20) = _
  after_results
  rw [W2_arg3]
  rfl

/-- The messages: if the first region left the reference's normalised array `x / √(deg + 1)`, the second region
    finds the reference's aggregated messages — the same gather at the wrapped sources and the same scatter-add at
    the destinations, of the same array. -/
theorem V3_v19 (c : Dev nD)
    (h : (dat0 (V1 m ρ) c).arrAt 2 cfg0.N
      = Cert.ReferenceIdeal.Read.val_main_v13 (F := F) (m ((c.tc : Thread nD τ).loc main_arg0)) (m ((c.tc : Thread nD τ).loc main_arg1))) :
    V3 m ρ c main_v19
      = Cert.ReferenceIdeal.Read.val_main_v23 (F := F) (m ((c.tc : Thread nD τ).loc main_arg0)) (m ((c.tc : Thread nD τ).loc main_arg1)) := by
  show StableHlo.after hostOps1 (W2 m ρ c) (Proc.devRef .tc main_v19) = _
  after_results
  rw [W2_v1, W2_v3, W2_arr m ρ c 2, h]
  rfl

end Cert.KernelIdeal.Out

end
-- ==== Proof.Law.lean ====
/-
  The arithmetic on the extended reals that joins the two programs.

  * A scatter-add of nonnegative updates into a nonnegative array is nonnegative: each element is its old
    value plus a finite sum of updates.  For a degree count (updates all `1`, start all `0`) this gives
    `0 ≤ deg n`, hence `0 < deg n + 1`.
  * For `0 < y` (a positive real, or `+∞`) multiplying by the reciprocal square root IS dividing by the
    square root, for EVERY extended real `x`: at a positive real `y` both are `x · (√y)⁻¹`; at `+∞` both are
    `x · 0`.  (At `y ≤ 0` the two differ, which is why the positivity of `deg + 1` is needed.)
  * The float literals `1.0` and `+0.0` denote `1` and `0`.
-/
import Idealize.ShloMosaic.PureOps.Ideal

noncomputable section

namespace Cert.GcnLaw

open Idealize.ShloMosaic

/-- The pattern of `1.0` denotes the real one. -/
theorem ofBits_one : Ideal.ofBits .f32 0x3F800000#32 = 1 := by
  simp [Ideal.ofBits, Ideal.ieee, -EReal.coe_mul]; norm_num

/-- The pattern of `+0.0` denotes zero. -/
theorem ofBits_zero : Ideal.ofBits .f32 0x00000000#32 = 0 := by
  simp [Ideal.ofBits, Ideal.ieee]

/-- Scatter-adding nonnegative updates into a nonnegative array leaves every element nonnegative. -/
theorem scatterAdd_nonneg {s si su : Shape} (d : ScatterDims s si su) {w : Nat} (x : s.Idx → EReal) (idx : IVec si w)
    (upd : su.Idx → EReal) (hx : ∀ i, 0 ≤ x i) (hu : ∀ j, 0 ≤ upd j) (i : s.Idx) :
    0 ≤ Ideal.hostScatterAdd d x idx upd i :=
  add_nonneg (hx i) (Finset.sum_nonneg fun j _ => hu j)

/-- The same for the host's accumulating scatter, which at the ideal instance is that sum. -/
theorem host_scatterAdd_nonneg {s si su : Shape} {φ : FTy} (d : ScatterDims s si su) {w : Nat} (x : FVec Ideal s φ) (idx : IVec si w)
    (upd : FVec Ideal su φ) (hx : ∀ i, (0 : EReal) ≤ x i) (hu : ∀ j, (0 : EReal) ≤ upd j) (i : s.Idx) :
    (0 : EReal) ≤ Host.scatterAdd d x idx upd i :=
  scatterAdd_nonneg d x idx upd hx hu i

/-- For a positive `y` (a positive real or `+∞`), `x · rsqrt y = x / sqrt y` for every extended real `x`. -/
theorem mul_rsqrt_eq_div_sqrt (x y : EReal) (hy : 0 < y) :
    x * Ideal.rsqrt y = Ideal.div x (Ideal.sqrt y) := by
  induction y using EReal.rec with
  | bot => exact absurd hy (not_lt.mpr bot_le)
  | top =>
    rw [Ideal.rsqrt_top, Ideal.sqrt_top, Ideal.div, if_neg (by simp), EReal.inv_top]
  | coe r =>
    have hr : 0 < r := by exact_mod_cast hy
    have hs : 0 < Real.sqrt r := Real.sqrt_pos.mpr hr
    have hne : ((Real.sqrt r : ℝ) : EReal) ≠ 0 := by exact_mod_cast hs.ne'
    have e1 : Ideal.rsqrt (r : EReal) = (((Real.sqrt r)⁻¹ : ℝ) : EReal) := by
      rw [Ideal.rsqrt_coe, if_neg (not_lt.mpr hr.le), if_neg hr.ne']
    have e2 : Ideal.sqrt (r : EReal) = ((Real.sqrt r : ℝ) : EReal) := by
      rw [Ideal.sqrt_coe, if_neg (not_lt.mpr hr.le)]
    rw [e1, e2, Ideal.div, if_neg hne, EReal.coe_inv]

/-- With `0 ≤ d`, `x · rsqrt (d + 1) = x / sqrt (d + 1)`. -/
theorem mul_rsqrt_succ (x d : EReal) (hd : 0 ≤ d) :
    x * Ideal.rsqrt (d + 1) = Ideal.div x (Ideal.sqrt (d + 1)) :=
  mul_rsqrt_eq_div_sqrt x (d + 1) (lt_of_lt_of_le zero_lt_one (le_add_of_nonneg_left hd))

end Cert.GcnLaw

end
-- ==== Proof.RefRead.lean ====
/-
  The reference's stages read at an index, on the extended reals.

  With `deg n = Σ_{e : src e = n} 1 ≥ 0`:
  * the normalised features are `xn (n, d) = x (n, d) · rsqrt (deg n + 1)` — the reference writes the quotient
    `x / √(deg + 1)`, which is that product because `deg n + 1 > 0`;
  * the output is `out (n, o) = Σ_k (msg (n, k) + xn (n, k)) · W (o, k) + b o` — the reference's product with
    the transposed weights read entry by entry.
-/
import proofs.«169893_j90615220011124_2_alg».proof.Proof.Gen.ReferenceIdeal.Read
import proofs.«169893_j90615220011124_2_alg».proof.Proof.Law
import Idealize.ShloMosaic.Lib.ValueIdx

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- A node's degree is a sum of ones: nonnegative. -/
theorem deg_nonneg (E : (⟨S2x1000000, .i32⟩ : BufTy).Contents (Elt Ideal)) (n : S100000.Idx) :
    (0 : EReal) ≤ val_main_v7 (F := Ideal) E n := by
  unfold val_main_v7
  refine Cert.GcnLaw.host_scatterAdd_nonneg _ _ _ _ (fun i => ?_) (fun j => ?_) n
  · rw [val_main_v5_apply, val_main_cst_0_apply]
    show (0 : EReal) ≤ Ideal.ofBits .f32 0x00000000#32
    rw [Cert.GcnLaw.ofBits_zero]
  · rw [val_main_v4_apply, val_main_cst_apply]
    show (0 : EReal) ≤ Ideal.ofBits .f32 0x3F800000#32
    rw [Cert.GcnLaw.ofBits_one]; exact zero_le_one

/-- The reference's normalised features at an index: the feature times the reciprocal square root of the
    row's degree plus one. -/
theorem xnorm_apply (X : (⟨S100000x64, .f32⟩ : BufTy).Contents (Elt Ideal)) (E : (⟨S2x1000000, .i32⟩ : BufTy).Contents (Elt Ideal))
    (i : S100000x64.Idx) :
    val_main_v13 (F := Ideal) X E i = (X i : EReal) * Ideal.rsqrt (val_main_v7 (F := Ideal) E (ix1 (n := 100000) (i 0)) + 1) := by
  rw [val_main_v13_apply, val_main_v12_apply, val_main_v11_apply, val_main_v10_apply, val_main_v9_apply, val_main_v8_apply,
    val_main_cst_1_apply]
  have hi : idx_main_v11 (idx_main_v12 i) = ix1 (n := 100000) (i 0) := funext fun a => Fin.ext (by match a with | ⟨0, _⟩ => rfl)
  rw [hi, Ideal.hostDivf_def, Ideal.hostUnary_sqrt_def, Ideal.addf_def, Ideal.ofBits_def, Cert.GcnLaw.ofBits_one]
  exact (Cert.GcnLaw.mul_rsqrt_succ _ _ (deg_nonneg E _)).symm

/-- The reference's output at an index `(n, o)`: the row `n` of aggregated features (`lidx_main_v26 i k` is `(n, k)`)
    against the row `o` of the weights (`idx_main_v25 (ridx_main_v26 i k)` is `(o, k)`), plus the bias at `o`. -/
theorem out_apply (X : (⟨S100000x64, .f32⟩ : BufTy).Contents (Elt Ideal)) (E : (⟨S2x1000000, .i32⟩ : BufTy).Contents (Elt Ideal))
    (W : (⟨S64x64, .f32⟩ : BufTy).Contents (Elt Ideal)) (B : (⟨S64, .f32⟩ : BufTy).Contents (Elt Ideal)) (i : S100000x64.Idx) :
    val_main_v29 (F := Ideal) X E W B i
      = (∑ k : Fin 64, ((val_main_v23 (F := Ideal) X E (lidx_main_v26 i k) : EReal) + val_main_v13 (F := Ideal) X E (lidx_main_v26 i k))
            * W (idx_main_v25 (ridx_main_v26 i k)))
        + B (idx_main_v27 (idx_main_v28 i)) := by
  rw [val_main_v29_apply, val_main_v26_apply, val_main_v28_apply, val_main_v27_apply]
  have h24 : ∀ j : S100000x64.Idx, val_main_v24 (F := Ideal) X E j
      = (val_main_v23 (F := Ideal) X E j : EReal) + val_main_v13 (F := Ideal) X E j := fun j => val_main_v24_apply X E j
  simp only [val_main_v25_apply, h24, Ideal.addf_def]

end Cert.ReferenceIdeal.RefValue

end
-- ==== Proof.NormRegion.lean ====
/-
  The normalising region: the array it leaves is the reference's normalised features.

  The grid has ten points; point `t` owns rows `10000·t … 10000·t + 9999` of the features, of the degree column
  and of the output.  At a point the body multiplies each feature by the reciprocal square root of its row's
  degree plus one (the degree column broadcast along the row), so entry `(r, d)` of what point `t` writes back is
  `x (10000·t + r, d) · rsqrt (deg (10000·t + r) + 1)`: block `t` of the reference's normalised array, read where
  the output's rectangle says.  The ten blocks tile the array (row `n` lies in block `n / 10000`).

  The per-point statement is made for ARBITRARY entry contents `V`, features `X`, degrees `D` and target array `G`
  related by hypotheses; the arrays the run really has are put in only at the end.
-/
import proofs.«169893_j90615220011124_2_alg».proof.Proof.Gen.KernelIdeal.Frame
import proofs.«169893_j90615220011124_2_alg».proof.Proof.Gen.ReferenceIdeal.Read
import proofs.«169893_j90615220011124_2_alg».proof.Proof.HostReads
import proofs.«169893_j90615220011124_2_alg».proof.Proof.RefRead
import Idealize.ShloMosaic.Lib.Pipeline.Value
import Idealize.ShloMosaic.Lib.ValueIdx

set_option maxRecDepth 16384

noncomputable section

namespace Cert.KernelIdeal.Out

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

theorem off_zero : (![0, 0] : Fin 2 → Nat) = fun _ => 0 := funext fun a => by fin_cases a <;> rfl

/-- The body's stored value at an entry: the feature times the reciprocal square root of the row's degree
    entry plus one. -/
theorem norm_pay (v0 : Vec Ideal S10000x1 .f32) (v5 : Vec Ideal S10000x64 .f32) (j : S10000x64.Idx) :
    k0_pay1 v0 v5 j
      = (v5 j : EReal) * Ideal.rsqrt ((v0 (ix2 (n0 := 10000) (n1 := 1) (j 0) 0) : EReal) + Ideal.ofBits .f32 0x3F800000#32) := by
  unfold k0_pay1
  show (v5 j : EReal) * (broadcastTo S10000x64 (rsqrt (F := Ideal) (addf (F := Ideal) (shapeCast S10000x1 v0 _) (broadcast S10000x1 (Scalar.ofBits (F := Ideal) .f32 0x3F800000#32)))) _) j = _
  rw [broadcastTo_apply _ _ j (ix2 (n0 := 10000) (n1 := 1) (j 0) 0) (fun a => by
    match a with
    | ⟨0, _⟩ => show (j 0).val = if (10000 : Nat) = 1 then 0 else (j 0).val; rw [if_neg (by decide)]
    | ⟨1, _⟩ => show 0 = if (1 : Nat) = 1 then 0 else (j 1).val; rw [if_pos rfl]), shapeCast_self]
  rfl

/-- The printed index maps over the grid: every window's block row is the point's number, its block column 0. -/
theorem idx_norm : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

section AnyContents

variable (V : (c : Dev nD) → (b : Ref sig .tc) → Buf (Elt Ideal) ((c : Thread nD τ).loc b))

/-- What point `t` writes back is block `t` of ANY array `G` that is, entry by entry, the feature times the reciprocal
    square root of the row's degree plus one — for any entry contents whose feature array is `X` and whose degree
    column is `D` reshaped. -/
theorem flushed_norm_of (c : Dev nD) (t : Fin cfg0.N)
    (X : FVec Ideal S100000x64 .f32) (D : FVec Ideal S100000 .f32)
    (G : Buf (Elt Ideal) ((cfg0.win 2).arr.view.loc (c.tc : Thread nD τ)))
    (hX : V c main_arg0 = X) (hD : V c main_v8 = shapeCast S100000x1 D Facts₀.shapeCasts_S100000_S100000x1)
    (hG : ∀ i : S100000x64.Idx, G i = (X i : EReal) * Ideal.rsqrt ((D (ix1 (n := 100000) (i 0)) : EReal) + 1)) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero off_zero]
  simp only [View.ld_unit_zero (S := S10000x1) off_zero, View.ld_unit_zero (S := S10000x64) off_zero]
  obtain ⟨e0, e1, e2, e3, e4, e5⟩ := idx_norm t
  funext j
  show k0_pay1 (iblk0 V c 1 t) (iblk0 V c 0 t) j = G (((cfg0.win 2).blk t).view.emb j)
  refine (norm_pay _ _ j).trans ?_
  rw [hG, Cert.GcnLaw.ofBits_one]
  have hj0 : (j 0).val < 10000 := (j 0).isLt
  have hj1 : (j 1).val < 64 := (j 1).isLt
  have h0 : iblk0 V c 0 t j = X (((cfg0.win 2).blk t).view.emb j) := by
    show V c main_arg0 (((cfg0.win 0).blk t).view.emb j) = _
    rw [hX]
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : iblk0 V c 1 t (ix2 (n0 := 10000) (n1 := 1) (j 0) 0)
      = D (ix1 (n := 100000) ((((cfg0.win 2).blk t).view.emb j) 0)) := by
    show V c main_v8 (((cfg0.win 1).blk t).view.emb (ix2 (n0 := 10000) (n1 := 1) (j 0) 0)) = _
    rw [hD]
    refine shapeCast_apply _ _ _ _ ?_
    rw [Shape.rowMajor_val_one, Shape.rowMajor_val_two]
    show win0_2.index t (0 : Fin 2) * 10000 + 1 * (j 0).val
      = (win0_1.index t (0 : Fin 2) * 10000 + 1 * (j 0).val) * 1 + (win0_1.index t (1 : Fin 2) * 1 + 1 * 0)
    omega
  rw [h0, h1]

end AnyContents

/-- An index of the array is in point `t`'s block iff each coordinate is in the block's range on its axis. -/
theorem mem_blk_norm (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v9).slice (win0_2.rect t)).set ↔ _
  rw [View.set_slice_whole, Rect.mem_set_unit]
  exact Iff.rfl

/-- Row `n` lies in the block of point `n / 10000`. -/
theorem cover_norm (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  refine ⟨t, flush0_2 t, ?_⟩
  rw [mem_blk_norm]
  obtain ⟨e0, e1, e2, e3, e4, e5⟩ := idx_norm t
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

variable (m : (ℓ : Loc nD τ sig) → Buf (Elt Ideal) ℓ) (ρ : Dev nD → PrngReg)

/-- After the first region its output array is the reference's normalised features `x / √(deg + 1)`. -/
theorem final_norm (c : Dev nD) :
    (dat0 (V1 m ρ) c).arrAt 2 cfg0.N
      = Cert.ReferenceIdeal.Read.val_main_v13 (F := Ideal) (m ((c.tc : Thread nD τ).loc main_arg0)) (m ((c.tc : Thread nD τ).loc main_arg1)) :=
  (dat0 (V1 m ρ) c).arrAt_eq_of_cover 2
    (Cert.ReferenceIdeal.Read.val_main_v13 (F := Ideal) (m ((c.tc : Thread nD τ).loc main_arg0)) (m ((c.tc : Thread nD τ).loc main_arg1)))
    (fun t _ => flushed_norm_of (V1 m ρ) c t (m ((c.tc : Thread nD τ).loc main_arg0))
      (Cert.ReferenceIdeal.Read.val_main_v7 (F := Ideal) (m ((c.tc : Thread nD τ).loc main_arg1)))
      (Cert.ReferenceIdeal.Read.val_main_v13 (F := Ideal) (m ((c.tc : Thread nD τ).loc main_arg0)) (m ((c.tc : Thread nD τ).loc main_arg1)))
      (V1_arg0 m ρ c) (V1_v8 m ρ c)
      (fun i => Cert.ReferenceIdeal.RefValue.xnorm_apply _ _ i))
    cover_norm

end Cert.KernelIdeal.Out

end
-- ==== Proof.LinRegion.lean ====
/-
  The linear region: the array it leaves is the reference's output.

  Point `t` of the ten owns rows `10000·t … 10000·t + 9999` of the messages, of the normalised features and of
  the output; the weights and the bias are one block each, the same at every point.  At a point the body adds the
  two row blocks, contracts the sum's axis 1 with the weights' axis 1 into a zero accumulator, and adds the bias
  row: entry `(r, o)` of what it writes back is `Σ_k (msg (n, k) + xn (n, k)) · W (o, k) + b o` at `n = 10000·t + r`.
  That is the reference's `(msg + xn) · Wᵀ + b` at `(n, o)`: the same sum over `k`, the rounding to bf16 before the
  product being the identity on the extended reals.  The ten blocks tile the array.

  As for the first region, the per-point statement is made for arbitrary entry contents and target array.
-/
import proofs.«169893_j90615220011124_2_alg».proof.Proof.Gen.KernelIdeal.Frame
import proofs.«169893_j90615220011124_2_alg».proof.Proof.Gen.ReferenceIdeal.Read
import proofs.«169893_j90615220011124_2_alg».proof.Proof.HostReads
import proofs.«169893_j90615220011124_2_alg».proof.Proof.RefRead
import proofs.«169893_j90615220011124_2_alg».proof.Proof.NormRegion
import Idealize.ShloMosaic.Lib.Pipeline.Value
import Idealize.ShloMosaic.Lib.ValueIdx
import Idealize.ShloMosaic.PureOps.Ideal.Laws

set_option maxRecDepth 16384

noncomputable section

namespace Cert.KernelIdeal.Out

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-! ## The contraction's index maps: output `(r, o)` and contraction index `k` read the left operand at `(r, k)`
    and the right operand at `(o, k)` -/

theorem lhs_row (j : S10000x64.Idx) (q : dot_S10000x64_S64x64_S10000x64_1_1_0_0_n_n.contr.Idx) : (dot_S10000x64_S64x64_S10000x64_1_1_0_0_n_n.lhsIdx j q 0).val = (j 0).val := by
  unfold DotDims.lhsIdx
  rw [dif_neg (show ¬(0 : Fin S10000x64.rank) ∈ dot_S10000x64_S64x64_S10000x64_1_1_0_0_n_n.lhsBatch by decide), dif_pos (show (0 : Fin S10000x64.rank) ∈ dot_S10000x64_S64x64_S10000x64_1_1_0_0_n_n.lhsNonContracting by decide)]
  rfl
theorem lhs_col (j : S10000x64.Idx) (q : dot_S10000x64_S64x64_S10000x64_1_1_0_0_n_n.contr.Idx) : (dot_S10000x64_S64x64_S10000x64_1_1_0_0_n_n.lhsIdx j q 1).val = (q ⟨0, by decide⟩).val :=
  dot_S10000x64_S64x64_S10000x64_1_1_0_0_n_n.lhsIdx_val_of_single rfl j q
theorem rhs_row (j : S10000x64.Idx) (q : dot_S10000x64_S64x64_S10000x64_1_1_0_0_n_n.contr.Idx) : (dot_S10000x64_S64x64_S10000x64_1_1_0_0_n_n.rhsIdx j q 0).val = (j 1).val := by
  unfold DotDims.rhsIdx
  rw [dif_neg (show ¬(0 : Fin S64x64.rank) ∈ dot_S10000x64_S64x64_S10000x64_1_1_0_0_n_n.rhsBatch by decide), dif_pos (show (0 : Fin S64x64.rank) ∈ dot_S10000x64_S64x64_S10000x64_1_1_0_0_n_n.rhsNonContracting by decide)]
  rfl
theorem rhs_col (j : S10000x64.Idx) (q : dot_S10000x64_S64x64_S10000x64_1_1_0_0_n_n.contr.Idx) : (dot_S10000x64_S64x64_S10000x64_1_1_0_0_n_n.rhsIdx j q 1).val = (q ⟨0, by decide⟩).val :=
  dot_S10000x64_S64x64_S10000x64_1_1_0_0_n_n.rhsIdx_val_of_single rfl j q

/-- The body's stored value at an entry: the row of summed features against the row of the weights, plus the
    bias entry. -/
theorem lin_pay (v0 v2 : Vec Ideal S10000x64 .f32) (v6 : Vec Ideal S64x64 .f32) (v9 : Vec Ideal S1x64 .f32) (j : S10000x64.Idx) :
    k1_pay1 v0 v2 v6 v9 j
      = (∑ k : Fin 64, ((v0 (ix2 (n0 := 10000) (n1 := 64) (j 0) k) : EReal) + v2 (ix2 (n0 := 10000) (n1 := 64) (j 0) k))
            * v6 (ix2 (n0 := 64) (n1 := 64) (j 1) k))
        + v9 (ix2 (n0 := 1) (n1 := 64) 0 (j 1)) := by
  unfold k1_pay1
  show (matmul (F := Ideal) dot_S10000x64_S64x64_S10000x64_1_1_0_0_n_n none (truncf (F := Ideal) .bf16 (addf (F := Ideal) (shapeCast S10000x64 v0 _) (shapeCast S10000x64 v2 _)) _) (truncf (F := Ideal) .bf16 v6 _)
      (constant (F := Ideal) S10000x64 .f32 0x00000000#32) j : EReal) + (broadcastTo S10000x64 (shapeCast S1x64 v9 _) _) j = _
  rw [broadcastTo_apply _ _ j (ix2 (n0 := 1) (n1 := 64) 0 (j 1)) (fun a => by
    match a with
    | ⟨0, _⟩ => show 0 = if (1 : Nat) = 1 then 0 else (j 0).val; rw [if_pos rfl]
    | ⟨1, _⟩ => show (j 1).val = if (64 : Nat) = 1 then 0 else (j 1).val; rw [if_neg (by decide)])]
  simp only [shapeCast_self]
  refine congrArg (fun z : EReal => z + (v9 (ix2 (n0 := 1) (n1 := 64) 0 (j 1)) : EReal)) ?_
  refine (Ideal.matmul_constant_zero_apply dot_S10000x64_S64x64_S10000x64_1_1_0_0_n_n none _ _ j).trans ?_
  rw [← Equiv.sum_comp (contrEquiv1 dot_S10000x64_S64x64_S10000x64_1_1_0_0_n_n 64 rfl rfl).symm]
  refine Finset.sum_congr rfl fun k _ => ?_
  have hk := contrEquiv1_symm_val dot_S10000x64_S64x64_S10000x64_1_1_0_0_n_n 64 rfl rfl k
  have el : dot_S10000x64_S64x64_S10000x64_1_1_0_0_n_n.lhsIdx j ((contrEquiv1 dot_S10000x64_S64x64_S10000x64_1_1_0_0_n_n 64 rfl rfl).symm k) = ix2 (n0 := 10000) (n1 := 64) (j 0) k :=
    funext fun a => Fin.ext (by
      match a with
      | ⟨0, _⟩ => exact lhs_row _ _
      | ⟨1, _⟩ => exact (lhs_col _ _).trans hk)
  have er : dot_S10000x64_S64x64_S10000x64_1_1_0_0_n_n.rhsIdx j ((contrEquiv1 dot_S10000x64_S64x64_S10000x64_1_1_0_0_n_n 64 rfl rfl).symm k) = ix2 (n0 := 64) (n1 := 64) (j 1) k :=
    funext fun a => Fin.ext (by
      match a with
      | ⟨0, _⟩ => exact rhs_row _ _
      | ⟨1, _⟩ => exact (rhs_col _ _).trans hk)
  rw [el, er]
  rfl

/-- The printed index maps over the grid: the row windows' block row is the point's number, everything else 0. -/
theorem idx_lin : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section AnyContents

variable (V : (c : Dev nD) → (b : Ref sig .tc) → Buf (Elt Ideal) ((c : Thread nD τ).loc b))

/-- What point `t` writes back is block `t` of ANY array `G` that is, entry `(n, o)` by entry, the row `n` of
    `M + XN` against the row `o` of `W` plus `B o` — for any entry contents whose message array is `M`, whose
    normalised features are `XN`, whose weights are `W` and whose bias row is `B` reshaped. -/
theorem flushed_lin_of (c : Dev nD) (t : Fin cfg1.N)
    (M XN : FVec Ideal S100000x64 .f32) (W : FVec Ideal S64x64 .f32) (B : FVec Ideal S64 .f32)
    (G : Buf (Elt Ideal) ((cfg1.win 4).arr.view.loc (c.tc : Thread nD τ)))
    (hM : V c main_v19 = M) (hXN : V c main_v9 = XN) (hW : V c main_arg2 = W)
    (hB : V c main_v20 = shapeCast S1x64 B Facts₀.shapeCasts_S64_S1x64)
    (hG : ∀ i : S100000x64.Idx, G i
      = (∑ k : Fin 64, ((M (Cert.ReferenceIdeal.Read.lidx_main_v26 i k) : EReal) + XN (Cert.ReferenceIdeal.Read.lidx_main_v26 i k))
            * W (Cert.ReferenceIdeal.Read.idx_main_v25 (Cert.ReferenceIdeal.Read.ridx_main_v26 i k)))
        + B (Cert.ReferenceIdeal.Read.idx_main_v27 (Cert.ReferenceIdeal.Read.idx_main_v28 i))) :
    (dat1 V c).flushed 4 t = ((cfg1.win 4).blk t).view.read (Elt Ideal) G := by
  show (cfg1.win 4).cut (grid1.coords t) ((dat1 V c).after 4 t) = _
  rw [after1_4]
  unfold out1_4
  rw [View.canon_unit_zero off_zero]
  simp only [View.ld_unit_zero (S := S10000x64) off_zero, View.ld_unit_zero (S := S64x64) off_zero, View.ld_unit_zero (S := S1x64) off_zero]
  obtain ⟨e0, e1, e2, e3, e4, e5, e6, e7, e8, e9⟩ := idx_lin t
  funext j
  show k1_pay1 (iblk1 V c 0 t) (iblk1 V c 1 t) (iblk1 V c 2 t) (iblk1 V c 3 t) j = G (((cfg1.win 4).blk t).view.emb j)
  refine (lin_pay _ _ _ _ j).trans ?_
  rw [hG]
  have hj0 : (j 0).val < 10000 := (j 0).isLt
  have hj1 : (j 1).val < 64 := (j 1).isLt
  have h0 : ∀ k : Fin 64, iblk1 V c 0 t (ix2 (n0 := 10000) (n1 := 64) (j 0) k)
      = M (Cert.ReferenceIdeal.Read.lidx_main_v26 (((cfg1.win 4).blk t).view.emb j) k) := fun k => by
    show V c main_v19 (((cfg1.win 0).blk t).view.emb (ix2 (n0 := 10000) (n1 := 64) (j 0) k)) = _
    rw [hM]
    refine congrArg _ (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * k.val = k.val; omega
  have h1 : ∀ k : Fin 64, iblk1 V c 1 t (ix2 (n0 := 10000) (n1 := 64) (j 0) k)
      = XN (Cert.ReferenceIdeal.Read.lidx_main_v26 (((cfg1.win 4).blk t).view.emb j) k) := fun k => by
    show V c main_v9 (((cfg1.win 1).blk t).view.emb (ix2 (n0 := 10000) (n1 := 64) (j 0) k)) = _
    rw [hXN]
    refine congrArg _ (funext fun a => Fin.ext ?_)
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 64 + 1 * k.val = k.val; omega
  have h2 : ∀ k : Fin 64, iblk1 V c 2 t (ix2 (n0 := 64) (n1 := 64) (j 1) k)
      = W (Cert.ReferenceIdeal.Read.idx_main_v25 (Cert.ReferenceIdeal.Read.ridx_main_v26 (((cfg1.win 4).blk t).view.emb j) k)) := fun k => by
    show V c main_arg2 (((cfg1.win 2).blk t).view.emb (ix2 (n0 := 64) (n1 := 64) (j 1) k)) = _
    rw [hW]
    refine congrArg _ (funext fun a => Fin.ext ?_)
    match a with
    | ⟨0, _⟩ => show win1_2.index t (0 : Fin 2) * 64 + 1 * (j 1).val = win1_4.index t (1 : Fin 2) * 64 + 1 * (j 1).val; omega
    | ⟨1, _⟩ => show win1_2.index t (1 : Fin 2) * 64 + 1 * k.val = k.val; omega
  have h3 : iblk1 V c 3 t (ix2 (n0 := 1) (n1 := 64) 0 (j 1))
      = B (Cert.ReferenceIdeal.Read.idx_main_v27 (Cert.ReferenceIdeal.Read.idx_main_v28 (((cfg1.win 4).blk t).view.emb j))) := by
    show V c main_v20 (((cfg1.win 3).blk t).view.emb (ix2 (n0 := 1) (n1 := 64) 0 (j 1))) = _
    rw [hB]
    refine shapeCast_apply _ _ _ _ ?_
    rw [Shape.rowMajor_val_one, Shape.rowMajor_val_two]
    show win1_4.index t (1 : Fin 2) * 64 + 1 * (j 1).val
      = (win1_3.index t (0 : Fin 2) * 1 + 1 * 0) * 64 + (win1_3.index t (1 : Fin 2) * 64 + 1 * (j 1).val)
    omega
  simp only [h0, h1, h2, h3]

end AnyContents

/-- An index of the array is in point `t`'s block iff each coordinate is in the block's range on its axis. -/
theorem mem_blk_lin (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v21).slice (win1_4.rect t)).set ↔ _
  rw [View.set_slice_whole, Rect.mem_set_unit]
  exact Iff.rfl

/-- Row `n` lies in the block of point `n / 10000`. -/
theorem cover_lin (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  refine ⟨t, flush1_4 t, ?_⟩
  rw [mem_blk_lin]
  obtain ⟨e0, e1, e2, e3, e4, e5, e6, e7, e8, e9⟩ := idx_lin t
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

variable (m : (ℓ : Loc nD τ sig) → Buf (Elt Ideal) ℓ) (ρ : Dev nD → PrngReg)

/-- After the second region its output array is the reference's output. -/
theorem final_lin (c : Dev nD) :
    (dat1 (V3 m ρ) c).arrAt 4 cfg1.N
      = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) :=
  (dat1 (V3 m ρ) c).arrAt_eq_of_cover 4
    (Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)))
    (fun t _ => flushed_lin_of (V3 m ρ) c t
      (Cert.ReferenceIdeal.Read.val_main_v23 (F := Ideal) (m ((c.tc : Thread nD τ).loc main_arg0)) (m ((c.tc : Thread nD τ).loc main_arg1)))
      (Cert.ReferenceIdeal.Read.val_main_v13 (F := Ideal) (m ((c.tc : Thread nD τ).loc main_arg0)) (m ((c.tc : Thread nD τ).loc main_arg1)))
      (m ((c.tc : Thread nD τ).loc main_arg2)) (m ((c.tc : Thread nD τ).loc main_arg3))
      (Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)))
      (V3_v19 m ρ c (final_norm m ρ c)) ((V3_v9 m ρ c).trans (final_norm m ρ c)) (V3_arg2 m ρ c) (V3_v20 m ρ c)
      (fun i => Cert.ReferenceIdeal.RefValue.out_apply _ _ _ _ i))
    cover_lin

end Cert.KernelIdeal.Out

end
-- ==== Proof.lean ====
/-
  A graph-convolution layer: degree normalisation, message passing with a self loop, a linear map.

  With `deg n` the number of edges whose source is `n`, both programs compute
      xn (n, d)  = x (n, d) / √(deg n + 1)
      msg        = the scatter-add, at the destinations, of the rows of `xn` gathered at the sources
      out (n, o) = Σ_k (msg (n, k) + xn (n, k)) · W (o, k) + b o .
  The kernel computes `xn` in a first region as `x · rsqrt (deg + 1)` and `out` in a second region with a matrix
  product into a zero accumulator; the gather and the two scatter-adds are the same host operations in both
  programs.  On the extended reals `x · rsqrt y = x / √y` whenever `0 < y`, and `deg n + 1 ≥ 1` because a degree
  is a sum of ones; a matrix product into zero and a product with the transposed weights are the same sum over
  `k`.  So the two results are equal for every input, finite or not.

  * `frame` of the two kernel programs: generated.  `frame` of the reference: its generated run, result dropped.
  * `preserves`: the idealization rewrote nothing.
  * `algebraic`: the common value is the reference's own last stage; the kernel's run ends there by the chain
    first region = the reference's `xn` (NormRegion), host operations between (HostReads), second region = the
    reference's output (LinRegion).
-/
import proofs.«169893_j90615220011124_2_alg».proof.Defs
import proofs.«169893_j90615220011124_2_alg».proof.Proof.Gen.Kernel
import proofs.«169893_j90615220011124_2_alg».proof.Proof.Gen.Kernel.Skeleton
import proofs.«169893_j90615220011124_2_alg».proof.Proof.Gen.Kernel.Launch
import proofs.«169893_j90615220011124_2_alg».proof.Proof.Gen.Kernel.Points
import proofs.«169893_j90615220011124_2_alg».proof.Proof.Gen.Kernel.Frame
import proofs.«169893_j90615220011124_2_alg».proof.Proof.Gen.KernelIdeal
import proofs.«169893_j90615220011124_2_alg».proof.Proof.Gen.KernelIdeal.Skeleton
import proofs.«169893_j90615220011124_2_alg».proof.Proof.Gen.KernelIdeal.Launch
import proofs.«169893_j90615220011124_2_alg».proof.Proof.Gen.KernelIdeal.Points
import proofs.«169893_j90615220011124_2_alg».proof.Proof.Gen.KernelIdeal.Frame
import proofs.«169893_j90615220011124_2_alg».proof.Proof.Gen.ReferenceIdeal
import proofs.«169893_j90615220011124_2_alg».proof.Proof.Gen.Pre_finite_inputs
import proofs.«169893_j90615220011124_2_alg».proof.Proof.Gen.ReferenceIdeal.Run
import proofs.«169893_j90615220011124_2_alg».proof.Proof.Gen.ReferenceIdeal.Read
import proofs.«169893_j90615220011124_2_alg».proof.Proof.KernelRun
import proofs.«169893_j90615220011124_2_alg».proof.Proof.LinRegion
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the reference's last stage of the (agreeing) arguments. -/
theorem algebraic : Cert.algebraic_KernelIdeal_ReferenceIdeal := by
  intro m ρ m' ρ' _ hagree
  refine ⟨fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans ((Cert.KernelIdeal.Out.W4_out m ρ c).trans (Cert.KernelIdeal.Out.final_lin m ρ c)), (h c).2⟩)
      (Cert.KernelIdeal.Out.run m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v29_eq _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
